-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x4096, .f32⟩
  | .local _ .vmem, ⟨1, _⟩ => ⟨S1024x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c7_i32 : BitVec 32 := 7#32
  let v11 : BitVec 32 := Scalar.subi c7_i32 arg1
  let v12 : BitVec 32 := Scalar.select v10 arg1 v11
  let c0_i32_4 : BitVec 32 := 0#32
  let c0_i32_5 : BitVec 32 := 0#32
  ![v12.toNat, c0_i32_4.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c7_i32 : BitVec 32 := 7#32
  let v11 : BitVec 32 := Scalar.subi c7_i32 arg1
  let v12 : BitVec 32 := Scalar.select v10 arg1 v11
  let c0_i32_4 : BitVec 32 := 0#32
  let c0_i32_5 : BitVec 32 := 0#32
  ![c0_i32_4.toNat, v12.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c7_i32 : BitVec 32 := 7#32
  let v11 : BitVec 32 := Scalar.subi c7_i32 arg1
  let v12 : BitVec 32 := Scalar.select v10 arg1 v11
  let c0_i32_4 : BitVec 32 := 0#32
  ![arg0.toNat, v12.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LinearSpec.lean ====
/-
  The function both programs compute, stated once over the extended reals with no program in sight: for
  x : [4096, 4096], W : [4096, 4096] and b : [4096], the affine map  x · Wᵀ + b,

      out (r, c) = (∑ k < 4096, x (r, k) · W (c, k)) + b c.

  Row r of x is paired with ROW c of W (the weight is stored output-major, so no transpose of W is ever formed),
  the contraction runs over the full inner axis in one sum, and the bias is added once to the finished sum.
-/
import Idealize.ShloMosaic.PureOps.Ideal
import Idealize.ShloMosaic.Lib.ValueIdx

noncomputable section

open scoped BigOperators

namespace Cert.LinearSpec

open Idealize.ShloMosaic Idealize.ShloMosaic.ValueIdx

/-- `affine x W b` at (r, c): the inner product of row `r` of `x` with row `c` of `W`, plus `b c`. -/
def affine (x W : FVec Ideal ⟨2, ![4096, 4096]⟩ .f32) (b : FVec Ideal ⟨1, ![4096]⟩ .f32) :
    FVec Ideal ⟨2, ![4096, 4096]⟩ .f32 :=
  fun i => (∑ k : Fin 4096, x (ix2 (i 0) k) * W (ix2 (i 1) k)) + b (ix1 (i 1))

/-- The same entry with the row and column named. -/
theorem affine_apply (x W : FVec Ideal ⟨2, ![4096, 4096]⟩ .f32) (b : FVec Ideal ⟨1, ![4096]⟩ .f32)
    (r c : Fin 4096) :
    affine x W b (ix2 r c) = (∑ k : Fin 4096, x (ix2 r k) * W (ix2 c k)) + b (ix1 c) := rfl

end Cert.LinearSpec

end
-- ==== Proof.RefIsAffine.lean ====
/-
  The reference computes the affine map. It transposes W, contracts x's second axis with the transpose's first,
  broadcasts b along the rows and adds. Read at (r, c): the transpose at (k, c) is W (c, k), so the contraction is
  ∑ k, x (r, k) · W (c, k); the two broadcasts read b at c. That is `affine` entry by entry, with no algebra at all.
-/
import proofs.«172369_g21251498180730_pilotgen1_62_3_alg».proof.Proof.Gen.ReferenceIdeal.Read
import proofs.«172369_g21251498180730_pilotgen1_62_3_alg».proof.Proof.LinearSpec

noncomputable section

open scoped BigOperators

namespace Cert.RefAffine

open Idealize.ShloMosaic Idealize.ShloMosaic.ValueIdx Cert.ReferenceIdeal Cert.ReferenceIdeal.Read Cert.LinearSpec

/-- The reference's last stage, as a function of the three arguments, is the affine map. -/
theorem ref_eq (x W : (⟨S4096x4096, .f32⟩ : BufTy).Contents (Elt Ideal)) (b : (⟨S4096, .f32⟩ : BufTy).Contents (Elt Ideal)) :
    val_main_v4 (F := Ideal) x W b = affine x W b := by
  funext i
  -- the left factor of the contraction is x at (r, k)
  have el : ∀ k : Fin 4096, lidx_main_v1 i k = ix2 (i 0) k := fun k =>
    funext fun a => Fin.ext (by match a with | ⟨0, _⟩ => rfl | ⟨1, _⟩ => rfl)
  -- the right factor is the transpose at (k, c), which is W at (c, k)
  have er : ∀ k : Fin 4096, idx_main_v0 (ridx_main_v1 i k) = ix2 (i 1) k := fun k =>
    funext fun a => Fin.ext (by match a with | ⟨0, _⟩ => rfl | ⟨1, _⟩ => rfl)
  -- the bias is read at the column
  have eb : idx_main_v2 (idx_main_v3 i) = ix1 (i 1) :=
    funext fun a => Fin.ext (by match a with | ⟨0, _⟩ => rfl)
  rw [val_main_v4_apply, val_main_v1_apply, val_main_v3_apply, val_main_v2_apply]
  simp only [val_main_v0_apply, el, er, eb, Ideal.addf_def]
  rfl

end Cert.RefAffine

end
-- ==== Proof.TileAffine.lean ====
/-
  One grid step's arithmetic, entry by entry. A step holds a tile of 1024 rows of x, a tile of 512 rows of W
  (both with the whole inner axis of length 4096) and the matching 512 entries of b as a single row. It multiplies
  the two tiles contracting the inner axis of BOTH (rows of x against rows of W), starting from a zero accumulator,
  and adds the bias row to every row of the product. So at (p, q) of the 1024 × 512 result:

      tile (p, q) = (∑ k < 4096, xt (p, k) · wt (q, k)) + bt (0, q).

  The zero accumulator contributes 0 + _ ; the product's contraction index, a one-axis index, is renamed to k < 4096;
  the bias row is read at its only row whatever p is.
-/
import proofs.«172369_g21251498180730_pilotgen1_62_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TileAffine

open Idealize.ShloMosaic Idealize.ShloMosaic.ValueIdx Cert.KernelIdeal Cert.KernelIdeal.Gen
/-- The left operand of the tile product is read on the output's row … -/
theorem lhs_row (j : S1024x512.Idx) (z : dot_S1024x4096_S512x4096_S1024x512_1_1_0_0_n_n.contr.Idx) :
    (dot_S1024x4096_S512x4096_S1024x512_1_1_0_0_n_n.lhsIdx j z 0).val = (j 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl
/-- … and at the contraction index along its inner axis; -/
theorem lhs_inner (j : S1024x512.Idx) (z : dot_S1024x4096_S512x4096_S1024x512_1_1_0_0_n_n.contr.Idx) :
    (dot_S1024x4096_S512x4096_S1024x512_1_1_0_0_n_n.lhsIdx j z 1).val = (z ⟨0, by decide⟩).val :=
  dot_S1024x4096_S512x4096_S1024x512_1_1_0_0_n_n.lhsIdx_val_of_single rfl j z
/-- the right operand on the ROW named by the output's column (its rows are the outputs) … -/
theorem rhs_row (j : S1024x512.Idx) (z : dot_S1024x4096_S512x4096_S1024x512_1_1_0_0_n_n.contr.Idx) :
    (dot_S1024x4096_S512x4096_S1024x512_1_1_0_0_n_n.rhsIdx j z 0).val = (j 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl
/-- … and at the contraction index along its inner axis too. -/
theorem rhs_inner (j : S1024x512.Idx) (z : dot_S1024x4096_S512x4096_S1024x512_1_1_0_0_n_n.contr.Idx) :
    (dot_S1024x4096_S512x4096_S1024x512_1_1_0_0_n_n.rhsIdx j z 1).val = (z ⟨0, by decide⟩).val :=
  dot_S1024x4096_S512x4096_S1024x512_1_1_0_0_n_n.rhsIdx_val_of_single rfl j z

/-- The tile product at (p, q): rows of the x-tile against rows of the W-tile, over the one contracted axis. -/
theorem product_apply (xt : FVec Ideal S1024x4096 .f32) (wt : FVec Ideal S512x4096 .f32) (p : Fin 1024) (q : Fin 512) :
    matmul (F := Ideal) dot_S1024x4096_S512x4096_S1024x512_1_1_0_0_n_n none xt wt (constant S1024x512 .f32 0x00000000#32) (ix2 p q)
      = ∑ k : Fin 4096, xt (ix2 p k) * wt (ix2 q k) := by
  refine (Ideal.matmul_constant_zero_apply dot_S1024x4096_S512x4096_S1024x512_1_1_0_0_n_n none xt wt (ix2 p q)).trans ?_
  rw [← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q)
      ((contrEquiv1 dot_S1024x4096_S512x4096_S1024x512_1_1_0_0_n_n 4096 rfl rfl).symm k) = ix2 p k :=
    funext fun a => Fin.ext (by
      match a with
      | ⟨0, _⟩ => exact lhs_row _ _
      | ⟨1, _⟩ => exact (lhs_inner _ _).trans hk)
  have er : dot_S1024x4096_S512x4096_S1024x512_1_1_0_0_n_n.rhsIdx (ix2 p q)
      ((contrEquiv1 dot_S1024x4096_S512x4096_S1024x512_1_1_0_0_n_n 4096 rfl rfl).symm k) = ix2 q k :=
    funext fun a => Fin.ext (by
      match a with
      | ⟨0, _⟩ => exact rhs_row _ _
      | ⟨1, _⟩ => exact (rhs_inner _ _).trans hk)
  rw [el, er]

/-- The bias row spread over the 1024 rows reads its one row at the column. -/
theorem bias_apply (bt : FVec Ideal S1x512 .f32) (p : Fin 1024) (q : Fin 512) :
    broadcastTo S1024x512 (shapeCast S1x512 bt shapeCasts_S1x512_S1x512) broadcasts_S1x512_S1024x512 (ix2 p q)
      = bt (ix2 (0 : Fin 1) q) := by
  rw [shapeCast_self]
  exact broadcastTo_1b_ab_apply bt broadcasts_S1x512_S1024x512 p q

/-- What one grid step stores, at (p, q). -/
theorem tile_apply (xt : Vec Ideal S1024x4096 .f32) (wt : Vec Ideal S512x4096 .f32) (bt : Vec Ideal S1x512 .f32)
    (p : Fin 1024) (q : Fin 512) :
    k0_pay1 (F := Ideal) xt wt bt (ix2 p q) = (∑ k : Fin 4096, xt (ix2 p k) * wt (ix2 q k)) + bt (ix2 (0 : Fin 1) q) := by
  unfold k0_pay1
  refine (addf_apply _ _ (ix2 p q)).trans ?_
  rw [product_apply xt wt p q, bias_apply bt p q]

end Cert.TileAffine

end
-- ==== Proof.KernelAffine.lean ====
/-
  The kernel's output array after the run is the affine map  x · Wᵀ + b.

  The grid has 4 × 8 = 32 steps. Step (i, j) works on row tile i of x (rows 1024·i … 1024·i + 1023) and on column
  tile s of the output, where s = j on even i and s = 7 − j on odd i: the column tiles are walked back and forth,
  so consecutive steps across a change of i share the same tile of W. Whatever the order, at every step the tile of
  W (its rows 512·s …), the piece of b (entries 512·s …) and the output tile (rows 1024·i …, columns 512·s …) carry
  the SAME s, and the 32 steps visit every pair (i, s) exactly once. Hence

    * what a step writes back is the restriction of the affine map to its output tile: entry (p, q) of the tile is
      ∑ k, x (1024·i + p, k) · W (512·s + q, k) + b (512·s + q), which is the affine map at (1024·i + p, 512·s + q);
    * every entry (r, c) of the output lies in the tile of the step with i = r / 1024 and s = c / 512;

  so the array ends holding the affine map everywhere. The bias reaches the kernel as a [1, 4096] row (a reshape of
  b made before the launch): entry (0, c) of that row is b c.
-/
import proofs.«172369_g21251498180730_pilotgen1_62_3_alg».proof.Proof.Gen.KernelIdeal.Value
import proofs.«172369_g21251498180730_pilotgen1_62_3_alg».proof.Proof.LinearSpec
import proofs.«172369_g21251498180730_pilotgen1_62_3_alg».proof.Proof.TileAffine
import Idealize.ShloMosaic.Lib.StableHlo.Run
import Idealize.ShloMosaic.Lib.ValueLayout

noncomputable section

open scoped BigOperators

namespace Cert.KernelAffine

open Idealize.ShloMosaic Idealize.ShloMosaic.TcCoe Idealize.SL.Sem Idealize.ShloMosaic.ValueIdx
open Cert.KernelIdeal Cert.KernelIdeal.Gen Cert.KernelIdeal.Value Cert.LinearSpec
open Idealize.ShloMosaic.Pipeline (Dat)

variable (m : (ℓ : Loc nD τ sig) → Buf (Elt Ideal) ℓ) (ρ : Dev nD → PrngReg)

/-- Every access of the body starts at the origin of its tile. -/
theorem origin : (![0, 0] : Fin 2 → Nat) = fun _ => 0 := funext fun a => by fin_cases a <;> rfl

/-! ## The tiles a step works on -/

/-- At every step: the x tile is the output tile's row tile, over the whole inner axis; the W tile and the piece
    of b are the output tile's column tile; and the output's tile coordinates stay below 4 and 8. (The back-and-forth
    walk of the column tiles is the same expression in all three index maps; decided over the 32 steps.) -/
theorem tiles : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 7 :=
  (by decide +kernel : ∀ t : Fin grid0.N, _)

/-- Every output tile (a, s), a < 4 and s < 8, is some step's. -/
theorem tiles_onto : ∀ (a : Fin 4) (s : Fin 8), ∃ t : Fin cfg0.N, win0_3.index t = ![a.val, s.val] :=
  (by decide +kernel : ∀ (a : Fin 4) (s : Fin 8), ∃ t : Fin grid0.N, win0_3.index t = ![a.val, s.val])

/-! ## The arrays the launch finds -/

/-- The bias row the launch finds is the reshape of b to one row. -/
theorem bias_row (c : Dev nD) : (V m c main_call0_v0 : S1x4096.Idx → Ideal .f32)
    = shapeCast S1x4096 (m ((c : Thread nD τ).loc main_arg2) : S4096.Idx → Ideal .f32) shapeCasts_S4096_S1x4096 := by
  dsimp only [Gen.V, Gen.hostOps0]
  after_results
  rfl

/-- The x tile of a step, at (p, k): x at row (row tile)·1024 + p, column k. -/
theorem x_tile (c : Dev nD) (t : Fin cfg0.N) (p : Fin 1024) (k : Fin 4096) (r : Fin 4096)
    (hr : win0_3.index t (0 : Fin 2) * 1024 + 1 * p.val = r.val) :
    (iblk m c 0 t : S1024x4096.Idx → Ideal .f32) (ix2 p k)
      = (m ((c : Thread nD τ).loc main_arg0) : S4096x4096.Idx → Ideal .f32) (ix2 r k) := by
  obtain ⟨e0, e1, -⟩ := tiles t
  unfold iblk
  rw [View.read_apply]
  show V m c main_arg0 _ = _
  rw [V_main_arg0]
  refine congrArg (m ((c : Thread nD τ).loc main_arg0) : S4096x4096.Idx → Ideal .f32) (funext fun a => Fin.ext ?_)
  match a with
  | ⟨0, _⟩ => show win0_0.index t (0 : Fin 2) * 1024 + 1 * p.val = r.val; omega
  | ⟨1, _⟩ => show win0_0.index t (1 : Fin 2) * 4096 + 1 * k.val = k.val; omega

/-- The W tile of a step, at (q, k): W at row (column tile)·512 + q, column k. -/
theorem w_tile (c : Dev nD) (t : Fin cfg0.N) (q : Fin 512) (k : Fin 4096) (s : Fin 4096)
    (hs : win0_3.index t (1 : Fin 2) * 512 + 1 * q.val = s.val) :
    (iblk m c 1 t : S512x4096.Idx → Ideal .f32) (ix2 q k)
      = (m ((c : Thread nD τ).loc main_arg1) : S4096x4096.Idx → Ideal .f32) (ix2 s k) := by
  obtain ⟨-, -, e2, e3, -⟩ := tiles t
  unfold iblk
  rw [View.read_apply]
  show V m c main_arg1 _ = _
  rw [V_main_arg1]
  refine congrArg (m ((c : Thread nD τ).loc main_arg1) : S4096x4096.Idx → Ideal .f32) (funext fun a => Fin.ext ?_)
  match a with
  | ⟨0, _⟩ => show win0_1.index t (0 : Fin 2) * 512 + 1 * q.val = s.val; omega
  | ⟨1, _⟩ => show win0_1.index t (1 : Fin 2) * 4096 + 1 * k.val = k.val; omega

/-- The piece of b of a step, at (0, q): b at (column tile)·512 + q. -/
theorem b_tile (c : Dev nD) (t : Fin cfg0.N) (q : Fin 512) (s : Fin 4096)
    (hs : win0_3.index t (1 : Fin 2) * 512 + 1 * q.val = s.val) :
    (iblk m c 2 t : S1x512.Idx → Ideal .f32) (ix2 (0 : Fin 1) q)
      = (m ((c : Thread nD τ).loc main_arg2) : S4096.Idx → Ideal .f32) (ix1 s) := by
  obtain ⟨-, -, -, -, e4, e5, -⟩ := tiles t
  unfold iblk
  rw [View.read_apply]
  show V m c main_call0_v0 _ = _
  rw [bias_row]
  have hj : ((cfg0.win 2).blk t).view.emb (ix2 (0 : Fin 1) q) = ix2 (0 : Fin 1) s := funext fun a => Fin.ext (by
    match a with
    | ⟨0, _⟩ => show win0_2.index t (0 : Fin 2) * 1 + 1 * 0 = 0; omega
    | ⟨1, _⟩ => show win0_2.index t (1 : Fin 2) * 512 + 1 * q.val = s.val; omega)
  rw [hj]
  exact shapeCast_a_1a_apply _ shapeCasts_S4096_S1x4096 0 s

/-! ## What a step writes back, and the whole array -/

/-- The affine map of the three arguments as launched. -/
abbrev result (c : Dev nD) : Buf (Elt Ideal) ((c : Thread nD τ).loc main_v0) :=
  affine (m ((c : Thread nD τ).loc main_arg0)) (m ((c : Thread nD τ).loc main_arg1)) (m ((c : Thread nD τ).loc main_arg2))

/-- WHAT STEP `t` WRITES BACK is its output tile of the affine map. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero origin]
  simp only [View.ld_unit_zero (S := S1024x4096) origin, View.ld_unit_zero (S := S512x4096) origin,
    View.ld_unit_zero (S := S1x512) origin]
  funext j
  obtain ⟨p, q, rfl⟩ : ∃ (p : Fin 1024) (q : Fin 512), j = ix2 p q := ⟨j 0, j 1, eq_ix2 j⟩
  show k0_pay1 (F := Ideal) (iblk m c 0 t) (iblk m c 1 t) (iblk m c 2 t) (ix2 p q)
    = result m c (((cfg0.win 3).blk t).view.emb (ix2 p q))
  refine (Cert.TileAffine.tile_apply _ _ _ p q).trans ?_
  obtain ⟨r, s, hi⟩ : ∃ (r s : Fin 4096), ((cfg0.win 3).blk t).view.emb (ix2 p q) = ix2 r s := ⟨_, _, eq_ix2 _⟩
  have hr : win0_3.index t (0 : Fin 2) * 1024 + 1 * p.val = r.val := congrArg (fun z => (z 0).val) hi
  have hs : win0_3.index t (1 : Fin 2) * 512 + 1 * q.val = s.val := congrArg (fun z => (z 1).val) hi
  rw [hi]
  show _ = affine _ _ _ (ix2 r s)
  rw [affine_apply, b_tile m c t q s hs]
  refine congrArg (· + _) (Finset.sum_congr rfl fun k _ => ?_)
  rw [x_tile m c t p k r hr, w_tile m c t q k s hs]

/-- An entry of the array is in step `t`'s output tile iff each coordinate is in the tile's range on its axis. -/
theorem mem_tile (t : Fin cfg0.N) (i : S4096x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0).slice (win0_3.rect t)).set ↔ _
  rw [View.set_slice_whole, Rect.mem_set_unit]
  exact Iff.rfl

/-- Every entry (r, c) of the output is in the tile of the step with row tile r / 1024 and column tile c / 512. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := tiles_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_tile]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- THE ARRAY after the run is the affine map. -/
theorem final (c : Dev nD) : (dats m 0 c).arrAt 3 cfg0.N = result m c :=
  (dats m 0 c).arrAt_eq_of_cover 3 (result m c) (fun t _ => flushed_eq m c t) covered

/-- The run, read: the result array at the affine map of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelAffine

end
-- ==== Proof.lean ====
/-
  A linear layer  out = x · Wᵀ + b  on x : [4096, 4096], W : [4096, 4096] (stored output-major), b : [4096], computed
  by a tiled kernel, against the same expression written with a transpose, one whole contraction and a broadcast sum.

  Over the extended reals both programs hold, at every (r, c),

      (∑ k < 4096, x (r, k) · W (c, k)) + b c.

  The reference forms Wᵀ and contracts x's columns with Wᵀ's rows: its term at (r, k)·(k, c) is x (r, k) · W (c, k)
  (Proof/RefIsAffine.lean). The kernel cuts the output into 4 × 8 tiles of 1024 × 512; a step multiplies 1024 rows
  of x by 512 rows of W over the WHOLE inner axis in one contraction from a zero accumulator and adds the matching
  512 entries of b to every row (Proof/TileAffine.lean); the tiles, visited back and forth along the columns, cover
  the output, and each step's tile is the restriction of the formula above (Proof/KernelAffine.lean). The two sums
  are the same sum term by term, in the same order: no law of arithmetic is needed, and the inputs' finiteness is
  not used. The kernel's idealization rewrites nothing, so it is the kernel's own text read over the extended reals.
-/
import proofs.«172369_g21251498180730_pilotgen1_62_3_alg».proof.Defs
import proofs.«172369_g21251498180730_pilotgen1_62_3_alg».proof.Proof.Gen.Kernel
import proofs.«172369_g21251498180730_pilotgen1_62_3_alg».proof.Proof.Gen.Kernel.Skeleton
import proofs.«172369_g21251498180730_pilotgen1_62_3_alg».proof.Proof.Gen.Kernel.Launch
import proofs.«172369_g21251498180730_pilotgen1_62_3_alg».proof.Proof.Gen.Kernel.Points
import proofs.«172369_g21251498180730_pilotgen1_62_3_alg».proof.Proof.Gen.Kernel.Frame
import proofs.«172369_g21251498180730_pilotgen1_62_3_alg».proof.Proof.Gen.KernelIdeal
import proofs.«172369_g21251498180730_pilotgen1_62_3_alg».proof.Proof.Gen.KernelIdeal.Skeleton
import proofs.«172369_g21251498180730_pilotgen1_62_3_alg».proof.Proof.Gen.KernelIdeal.Launch
import proofs.«172369_g21251498180730_pilotgen1_62_3_alg».proof.Proof.Gen.KernelIdeal.Points
import proofs.«172369_g21251498180730_pilotgen1_62_3_alg».proof.Proof.Gen.KernelIdeal.Frame
import proofs.«172369_g21251498180730_pilotgen1_62_3_alg».proof.Proof.Gen.ReferenceIdeal
import proofs.«172369_g21251498180730_pilotgen1_62_3_alg».proof.Proof.Gen.KernelIdeal.Value
import proofs.«172369_g21251498180730_pilotgen1_62_3_alg».proof.Proof.Gen.ReferenceIdeal.Run
import proofs.«172369_g21251498180730_pilotgen1_62_3_alg».proof.Proof.Gen.ReferenceIdeal.Read
import proofs.«172369_g21251498180730_pilotgen1_62_3_alg».proof.Proof.Gen.Pre_finite_inputs
import proofs.«172369_g21251498180730_pilotgen1_62_3_alg».proof.Proof.RefIsAffine
import proofs.«172369_g21251498180730_pilotgen1_62_3_alg».proof.Proof.KernelAffine
import Idealize.ShloMosaic.Adequacy
import Idealize.ShloMosaic.Init

noncomputable section

namespace Cert.Proof

open Idealize.ShloMosaic Idealize.SL.Sem

/-- The kernel as printed runs to the end and leaves x, W and b as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on x, W and b, both runs end with the result array at the affine map  x · Wᵀ + b  of
    those arguments: the kernel's tile by tile, the reference's by reading its five operations at an entry. -/
theorem algebraic : Cert.algebraic_KernelIdeal_ReferenceIdeal := by
  intro m ρ m' ρ' _ hagree
  refine ⟨fun c => Cert.KernelAffine.result m c, Cert.KernelAffine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefAffine.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
